-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S200000x128 .f32) (main_arg1 : FVec F S200000x128 .f32) (main_arg2 : FVec F S128x128 .f32) (main_arg3 : FVec F S128x128 .f32) (main_arg4 : FVec F S128x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S200000x128 : Shape := ⟨2, ![200000, 128]⟩
abbrev S128x128 : Shape := ⟨2, ![128, 128]⟩
abbrev S2x128x128 : Shape := ⟨3, ![2, 128, 128]⟩
abbrev S10000x128 : Shape := ⟨2, ![10000, 128]⟩
abbrev S1x128x128 : Shape := ⟨3, ![1, 128, 128]⟩
abbrev S_ : Shape := ⟨0, ![]⟩

abbrev nBuf : Space → Nat
  | .hbm => 46
  | .vmem => 11
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S2x128x128, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .i1⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .i1⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S200000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x128x128, .f32⟩
  | .local _ .vmem, ⟨5, _⟩ => ⟨S1x128x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  slices_S2x128x128_S1x128x128_0_0_0 : S2x128x128.Slices ![0, 0, 0] S1x128x128
  slices_S2x128x128_S1x128x128_1_0_0 : S2x128x128.Slices ![1, 0, 0] S1x128x128
  bcast_S_S128x128 : S_.BroadcastsInDim S128x128 (![] : Fin 0 → Fin S128x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S10000x128_S10000x128_S128x128_0_0_1_1_n_n_wf : DotDims.WF S10000x128 S10000x128 S128x128 [0] [0] [1] [1] [] []
  dot_S128x128_S128x128_S128x128_1_0_0_1_n_n_wf : DotDims.WF S128x128 S128x128 S128x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S200000x128.size a
  hwx0_1 : ∀ i : grid0.Coords, EltTy.bits .f32 = 32 ∨ (Rect.block (s := S200000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S200000x128.size a
  hwx1_2 : ∀ i : grid1.Coords, EltTy.bits .f32 = 32 ∨ (Rect.block (s := S200000x128) S10000x128.size (cc1_transform_2 i) (hinb1_2 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S128x200000 : Shape := ⟨2, ![128, 200000]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x200000, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .i1⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .i1⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .i1⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .i1⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S200000x128, .f32⟩
  | .hbm, ⟨42, _⟩ => ⟨S_, .f32⟩
  | .hbm, ⟨43, _⟩ => ⟨S200000x128, .f32⟩
  | .hbm, ⟨44, _⟩ => ⟨S200000x128, .i1⟩
  | .hbm, ⟨45, _⟩ => ⟨S_, .f32⟩
  | .hbm, ⟨46, _⟩ => ⟨S200000x128, .f32⟩
  | .hbm, ⟨47, _⟩ => ⟨S200000x128, .f32⟩
  | .hbm, ⟨48, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  transposes_S200000x128_S128x200000_1_0 : S200000x128.Transposes [1, 0] S128x200000
  bcast_S_S128x128 : S_.BroadcastsInDim S128x128 (![] : Fin 0 → Fin S128x128.rank)
  bcast_S_S200000x128 : S_.BroadcastsInDim S200000x128 (![] : Fin 0 → Fin S200000x128.rank)
  dot_S128x200000_S200000x128_S128x128_1_0_0_1_n_n_wf : DotDims.WF S128x200000 S200000x128 S128x128 [1] [0] [0] [1] [] []
  dot_S128x128_S128x128_S128x128_1_0_0_1_n_n_wf : DotDims.WF S128x128 S128x128 S128x128 [1] [0] [0] [1] [] []
  dot_S200000x128_S128x128_S200000x128_1_0_0_1_n_n_wf : DotDims.WF S200000x128 S128x128 S200000x128 [1] [0] [0] [1] [] []

variable [Facts₀]

def dot_S128x200000_S200000x128_S128x128_1_0_0_1_n_n : DotDims S128x200000 S200000x128 S128x128 where
  lhsContracting := [1]
  rhsContracting := [0]
  lhsNonContracting := [0]
  rhsNonContracting := [1]
  lhsBatch := []
  rhsBatch := []
  wf := dot_S128x200000_S200000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.RunValue.lean ====
/-
  The idealized kernel's run with its result array named.

  The program is two pipelined regions with a stretch of host operations between them.  Its run, segment by segment,
  ends in a thread state that holds every unscoped buffer at the contents the last region leaves; read against the final
  memory, this gives the result array at those contents and the five argument arrays at their launch contents.
-/
import proofs.«167385_j65481071395086_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    second region's write-backs leave, and each argument array ends as launched. -/
theorem run_result : θ_run defs (onTc (τ := τ) (main (F := F))) ⟨m, fun _ => 0, ρ⟩ (fun r => ∀ c : Dev nD,
      r.2.mem ((c.tc : Thread nD τ).loc main_v32) = W11 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v32 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c)⟩)

end Cert.KernelIdeal.RunValue

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.Propagate.lean ====
/-
  The second region: one row tile of `adj` times the chained feature matrix, through the leaky rectifier.

  At grid point `t` the body reads rows `10000·t … 10000·t + 9999` of `adj` and the whole 128×128 matrix `f`, forms the
  row-by-column products into a zero accumulator, and stores `x ↦ if x ≥ 0 then x else 0.05·x` of them as row tile `t`
  of the result.  The twenty row tiles cover the result array, so on the extended reals the array ends holding, at
  `(r, e)`, the rectifier of `∑ₖ adj[r, k] · f[k, e]`.
-/
import proofs.«167385_j65481071395086_2_alg».proof.Proof.Gen.KernelIdeal.Frame
import proofs.«167385_j65481071395086_2_alg».proof.Proof.LibContractSum
import Idealize.ShloMosaic.Lib.Pipeline.Value
import Idealize.ShloMosaic.Lib.ValueIdx
import Idealize.ShloMosaic.PureOps.Ideal.Laws

set_option maxRecDepth 16384

noncomputable section

namespace Cert.KernelIdeal.Propagate

open Cert.KernelIdeal Cert.KernelIdeal.Gen
open Idealize.ShloMosaic Idealize.ShloMosaic.TcCoe Idealize.SL.Sem Idealize.ShloMosaic.ValueIdx
open Idealize.ShloMosaic.Pipeline (Dat)

/-- The index `(r, c)` of an `A × B` matrix, from natural coordinates. -/
abbrev rc {A B : Nat} (r : Nat) (hr : r < A) (c : Nat) (hc : c < B) : (⟨2, ![A, B]⟩ : Shape).Idx :=
  fun a => match a with
    | ⟨0, _⟩ => ⟨r, hr⟩
    | ⟨1, _⟩ => ⟨c, hc⟩

/-- The leaky rectifier on one extended real: `x` where `x ≥ 0`, else `0.05 · x` (the f32 literal of 0.05). -/
def leakyAt (x : Ideal .f32) : Ideal .f32 :=
  Scalar.select (FloatOps.cmpf .oge x (Scalar.ofBits (F := Ideal) .f32 0x00000000#32)) x
    (FloatOps.mulf (Scalar.ofBits (F := Ideal) .f32 0x3D4CCCCD#32) x)

/-- The rectified product of a tall matrix with a 128×128 one, entry by entry. -/
def rectProd {R : Nat} (A : (⟨2, ![R, 128]⟩ : Shape).Idx → Ideal .f32) (M : (⟨2, ![128, 128]⟩ : Shape).Idx → Ideal .f32) :
    (⟨2, ![R, 128]⟩ : Shape).Idx → Ideal .f32 :=
  fun i => leakyAt (∑ k : Fin 128, A (rc (i 0).val (i 0).isLt k.val k.isLt) * M (rc k.val k.isLt (i 1).val (i 1).isLt))

/-! ## The body's stored value at an index -/

theorem lhs_at (j : S10000x128.Idx) (k : Fin 128) :
    dot_S10000x128_S128x128_S10000x128_1_0_0_1_n_n.lhsIdx j ((contrEquiv1 dot_S10000x128_S128x128_S10000x128_1_0_0_1_n_n 128 rfl rfl).symm k)
      = rc (j 0).val (j 0).isLt k.val k.isLt := by
  have hk := contrEquiv1_symm_val dot_S10000x128_S128x128_S10000x128_1_0_0_1_n_n 128 rfl rfl k
  funext a; apply Fin.ext
  match a with
  | ⟨0, _⟩ =>
    show (dot_S10000x128_S128x128_S10000x128_1_0_0_1_n_n.lhsIdx j _ 0).val = (j 0).val
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  | ⟨1, _⟩ => exact (dot_S10000x128_S128x128_S10000x128_1_0_0_1_n_n.lhsIdx_val_of_single rfl j _).trans hk

theorem rhs_at (j : S10000x128.Idx) (k : Fin 128) :
    dot_S10000x128_S128x128_S10000x128_1_0_0_1_n_n.rhsIdx j ((contrEquiv1 dot_S10000x128_S128x128_S10000x128_1_0_0_1_n_n 128 rfl rfl).symm k)
      = rc k.val k.isLt (j 1).val (j 1).isLt := by
  have hk := contrEquiv1_symm_val dot_S10000x128_S128x128_S10000x128_1_0_0_1_n_n 128 rfl rfl k
  funext a; apply Fin.ext
  match a with
  | ⟨0, _⟩ => exact (dot_S10000x128_S128x128_S10000x128_1_0_0_1_n_n.rhsIdx_val_of_single rfl j _).trans hk
  | ⟨1, _⟩ =>
    show (dot_S10000x128_S128x128_S10000x128_1_0_0_1_n_n.rhsIdx j _ 1).val = (j 1).val
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- The stored tile at `j`: the rectifier of row `j₀` of the row tile times column `j₁` of the matrix (a change of
    float format is the identity on the extended reals, and the accumulator is the zero splat). -/
theorem tile_apply (x0 : Vec Ideal S10000x128 .f32) (x1 : Vec Ideal S128x128 .f32) (j : S10000x128.Idx) :
    k1_pay1 (F := Ideal) x0 x1 j = rectProd (R := 10000) x0 x1 j := by
  have hs : shapeCast S128x128 x1 shapeCasts_S128x128_S128x128 = x1 := shapeCast_self x1 _
  have hm := Cert.LibContractSum.matmul_zero_sum dot_S10000x128_S128x128_S10000x128_1_0_0_1_n_n none 128 rfl rfl
    (truncf .bf16 x0 bitsLt_bf16_f32) (truncf .bf16 (shapeCast S128x128 x1 shapeCasts_S128x128_S128x128) bitsLt_bf16_f32) j
    (fun k => rc (j 0).val (j 0).isLt k.val k.isLt) (fun k => rc k.val k.isLt (j 1).val (j 1).isLt) (lhs_at j) (rhs_at j)
  refine (congrArg leakyAt hm).trans ?_
  show leakyAt (∑ k : Fin 128, x0 (rc (j 0).val (j 0).isLt k.val k.isLt)
    * shapeCast S128x128 x1 shapeCasts_S128x128_S128x128 (rc k.val k.isLt (j 1).val (j 1).isLt)) = _
  rw [hs]
  rfl

/-! ## From row tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the `adj` window and the result window both sit at row tile `t`, the matrix window
    at its one block. -/
theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the region's result array ends holding, from the arrays the region finds. -/
abbrev result (c : Dev nD) : Buf (Elt Ideal) ((c : Thread nD τ).loc main_v32) :=
  rectProd (R := 200000) (V c main_arg1) (V c main_v31)

/-- Grid point `t` writes back row tile `t` of `result`. -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := tile_index t
  funext y
  have hy0 : (y 0).val < 10000 := (y 0).isLt
  have hy1 : (y 1).val < 128 := (y 1).isLt
  show k1_pay1 (F := Ideal) (iblk1 V c 0 t) (iblk1 V c 1 t) ((cfg1.win 2).xinj (grid1.coords t) y) = result V c (((cfg1.win 2).blk t).view.emb y)
  refine (tile_apply _ _ _).trans ?_
  unfold result rectProd
  refine congrArg leakyAt (Finset.sum_congr rfl fun k _ => ?_)
  have hk : k.val < 128 := k.isLt
  have hA : iblk1 V c 0 t (rc (((cfg1.win 2).xinj (grid1.coords t) y) 0).val (((cfg1.win 2).xinj (grid1.coords t) y) 0).isLt k.val k.isLt)
      = V c main_arg1 (rc ((((cfg1.win 2).blk t).view.emb y) 0).val ((((cfg1.win 2).blk t).view.emb y) 0).isLt k.val k.isLt) := by
    unfold iblk1
    rw [View.read_apply]
    show V c main_arg1 _ = V c main_arg1 _
    congr 1
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 128 + 1 * k.val = k.val; omega
  have hM : iblk1 V c 1 t (rc k.val k.isLt (((cfg1.win 2).xinj (grid1.coords t) y) 1).val (((cfg1.win 2).xinj (grid1.coords t) y) 1).isLt)
      = V c main_v31 (rc k.val k.isLt ((((cfg1.win 2).blk t).view.emb y) 1).val ((((cfg1.win 2).blk t).view.emb y) 1).isLt) := by
    unfold iblk1
    rw [View.read_apply]
    show V c main_v31 _ = V c main_v31 _
    congr 1
    funext a; apply Fin.ext
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega
  rw [hA, hM]

/-- An index of the result array is in point `t`'s row tile iff each coordinate is in the tile's range. -/
theorem mem_tile (t : Fin cfg1.N) (i : S200000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v32).slice (win1_2.rect t)).set ↔ _
  rw [View.set_slice_whole, Rect.mem_set_unit]
  exact Iff.rfl

/-- Row `r` lies in row tile `r / 10000`. -/
theorem cover (i : S200000x128.Idx) : ∃ t : Fin cfg1.N, (cfg1.win 2).flush t = true ∧ i ∈ ((cfg1.win 2).blk t).view.set := by
  have hi0 : (i 0).val < 200000 := (i 0).isLt
  have hi1 : (i 1).val < 128 := (i 1).isLt
  have hN : cfg1.N = 20 := N_1
  let t : Fin cfg1.N := ⟨(i 0).val / 10000, by rw [hN]; omega⟩
  obtain ⟨e0, e1, e2, e3, e4, e5⟩ := tile_index t
  have e4' : win1_2.index t (0 : Fin 2) = (i 0).val / 10000 := e4
  refine ⟨t, flush1_2 t, ?_⟩
  rw [mem_tile]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: the rectified product of `adj` with the matrix the region finds. -/
theorem final (c : Dev nD) : (dat1 V c).arrAt 2 cfg1.N = result V c :=
  (dat1 V c).arrAt_eq_of_cover 2 (result V c) (fun t _ => flushed_eq V c t) cover

end Cert.KernelIdeal.Propagate

end
-- ==== Proof.Reduce.lean ====
/-
  The first region: the product `adjᵀ · feature` accumulated tile by tile into two partial sums.

  The grid has twenty points `t = 10·c + s` (`c < 2`, `s < 10`).  At point `t` the body reads rows
  `10000·t … 10000·t + 9999` of `adj` and of `feature`, contracts them over the row axis into a zero accumulator, and adds
  the 128×128 product into output block `c`, which it has set to zero first when `s = 0`.  Block `c` is written back
  after point `10·c + 9`.  So on the extended reals the output array ends holding, at `(c, h, e)`,
  `0 + ∑_{s < 10} ∑_{k < 10000} adj[10000·(10c+s) + k, h] · feature[10000·(10c+s) + k, e]`.
-/
import proofs.«167385_j65481071395086_2_alg».proof.Proof.Gen.KernelIdeal.Frame
import proofs.«167385_j65481071395086_2_alg».proof.Proof.LibContractSum
import proofs.«167385_j65481071395086_2_alg».proof.Proof.Propagate
import Idealize.ShloMosaic.Lib.Pipeline.Value
import Idealize.ShloMosaic.Lib.ValueIdx
import Idealize.ShloMosaic.PureOps.Ideal.Laws

set_option maxRecDepth 16384

noncomputable section

namespace Cert.KernelIdeal.Reduce

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Propagate (rc)

/-! ## The body's stored block at an index -/

theorem lhs_at (j : S128x128.Idx) (k : Fin 10000) :
    dot_S10000x128_S10000x128_S128x128_0_0_1_1_n_n.lhsIdx j ((contrEquiv1 dot_S10000x128_S10000x128_S128x128_0_0_1_1_n_n 10000 rfl rfl).symm k)
      = rc k.val k.isLt (j 0).val (j 0).isLt := by
  have hk := contrEquiv1_symm_val dot_S10000x128_S10000x128_S128x128_0_0_1_1_n_n 10000 rfl rfl k
  funext a; apply Fin.ext
  match a with
  | ⟨0, _⟩ => exact (dot_S10000x128_S10000x128_S128x128_0_0_1_1_n_n.lhsIdx_val_of_single rfl j _).trans hk
  | ⟨1, _⟩ =>
    show (dot_S10000x128_S10000x128_S128x128_0_0_1_1_n_n.lhsIdx j _ 1).val = (j 0).val
    unfold DotDims.lhsIdx
    rw [dif_neg (show ¬(1 : Fin S10000x128.rank) ∈ dot_S10000x128_S10000x128_S128x128_0_0_1_1_n_n.lhsBatch by decide),
      dif_pos (show (1 : Fin S10000x128.rank) ∈ dot_S10000x128_S10000x128_S128x128_0_0_1_1_n_n.lhsNonContracting by decide)]
    rfl

theorem rhs_at (j : S128x128.Idx) (k : Fin 10000) :
    dot_S10000x128_S10000x128_S128x128_0_0_1_1_n_n.rhsIdx j ((contrEquiv1 dot_S10000x128_S10000x128_S128x128_0_0_1_1_n_n 10000 rfl rfl).symm k)
      = rc k.val k.isLt (j 1).val (j 1).isLt := by
  have hk := contrEquiv1_symm_val dot_S10000x128_S10000x128_S128x128_0_0_1_1_n_n 10000 rfl rfl k
  funext a; apply Fin.ext
  match a with
  | ⟨0, _⟩ => exact (dot_S10000x128_S10000x128_S128x128_0_0_1_1_n_n.rhsIdx_val_of_single rfl j _).trans hk
  | ⟨1, _⟩ =>
    show (dot_S10000x128_S10000x128_S128x128_0_0_1_1_n_n.rhsIdx j _ 1).val = (j 1).val
    unfold DotDims.rhsIdx
    rw [dif_neg (show ¬(1 : Fin S10000x128.rank) ∈ dot_S10000x128_S10000x128_S128x128_0_0_1_1_n_n.rhsBatch by decide),
      dif_pos (show (1 : Fin S10000x128.rank) ∈ dot_S10000x128_S10000x128_S128x128_0_0_1_1_n_n.rhsNonContracting by decide)]
    rfl

/-- An index of a block with a leading unit axis is `(0, its other coordinates)`. -/
theorem cons_zero_tail (j : S1x128x128.Idx) :
    (Fin.cons (⟨0, Nat.one_pos⟩ : Fin 1) (fun a : Fin 2 => j a.succ) : S1x128x128.Idx) = j := by
  funext a
  match a with
  | ⟨0, _⟩ => apply Fin.ext; have h : (j 0).val < 1 := (j 0).isLt; show 0 = (j 0).val; omega
  | ⟨1, _⟩ => rfl
  | ⟨2, _⟩ => rfl

/-- The accumulating store at `j = (0, h, e)`: what the block held there plus column `h` of the `adj` tile times
    column `e` of the `feature` tile, summed over the tile's rows. -/
theorem acc_apply (x0 x1 : Vec Ideal S10000x128 .f32) (acc : Vec Ideal S1x128x128 .f32) (j : S1x128x128.Idx) :
    k0_pay2 (F := Ideal) x0 x1 acc j
      = acc j + ∑ k : Fin 10000, x0 (rc k.val k.isLt (j 1).val (j 1).isLt) * x1 (rc k.val k.isLt (j 2).val (j 2).isLt) := by
  have hm := Cert.LibContractSum.matmul_zero_sum dot_S10000x128_S10000x128_S128x128_0_0_1_1_n_n none 10000 rfl rfl
    (truncf .bf16 x0 bitsLt_bf16_f32) (truncf .bf16 x1 bitsLt_bf16_f32) (fun a : Fin 2 => j a.succ)
    (fun k => rc k.val k.isLt (j 1).val (j 1).isLt) (fun k => rc k.val k.isLt (j 2).val (j 2).isLt)
    (lhs_at (fun a : Fin 2 => j a.succ)) (rhs_at (fun a : Fin 2 => j a.succ))
  unfold k0_pay2
  refine (shapeCast_addUnit_apply ![128, 128] _ shapeCasts_S128x128_S1x128x128 j).trans ?_
  show shapeCast S128x128 acc shapeCasts_S1x128x128_S128x128 (fun a : Fin 2 => j a.succ)
    + matmul (F := Ideal) dot_S10000x128_S10000x128_S128x128_0_0_1_1_n_n none (truncf .bf16 x0 bitsLt_bf16_f32) (truncf .bf16 x1 bitsLt_bf16_f32)
        (constant S128x128 .f32 0x00000000#32) (fun a : Fin 2 => j a.succ) = _
  refine congrArg₂ (· + ·) ?_ hm
  exact (shapeCast_dropUnit_apply ![128, 128] acc shapeCasts_S1x128x128_S128x128 _).trans (congrArg acc (cons_zero_tail j))

/-- The zero block the first point of a run stores. -/
theorem zero_apply (j : S1x128x128.Idx) : k0_pay1 (F := Ideal) j = 0 := by
  unfold k0_pay1
  refine (shapeCast_addUnit_apply ![128, 128] _ shapeCasts_S128x128_S1x128x128 j).trans ?_
  exact Ideal.ofBits_zero_f32

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- What the first point of a run leaves in the output's staging buffer: the zero block, read back and accumulated into. -/
theorem out_A_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x128x128 .f32) (harg4 : arg4.IsWhole) (hc0 : cond0_0 i)
    (x0 x1 : Vec F S10000x128 .f32) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  try sl_unfold_words
  rw [View.canon_cons_unit_zero (S := S1x128x128) hz3, View.readCov_unit_zero (S := S1x128x128) _ hz3]
  simp only [View.readAt_eq_ld, harg2.read_unread, harg3.read_unread, harg4.read_unread, View.ld_unit_zero (S := S1x128x128) hz3, View.ld_unit_zero (S := S10000x128) hz2]

/-- What a later point of a run leaves there: the block the point before left, accumulated into. -/
theorem out_B_eq (c : Dev nD) (i : grid0.Coords) (arg2 : Memref sig .tc .vmem S10000x128 .f32) (harg2 : arg2.IsWhole) (arg3 : Memref sig .tc .vmem S10000x128 .f32) (harg3 : arg3.IsWhole) (arg4 : Memref sig .tc .vmem S1x128x128 .f32) (harg4 : arg4.IsWhole) (hc0 : ¬cond0_0 i)
    (x0 x1 : Vec F S10000x128 .f32) (xo2 : Vec F S1x128x128 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  try sl_unfold_words
  rw [View.canon_unit_zero (S := S1x128x128) hz3]
  simp only [View.readAt_eq_ld, harg2.read_unread, harg3.read_unread, harg4.read_unread, View.ld_unit_zero (S := S1x128x128) hz3, View.ld_unit_zero (S := S10000x128) hz2]

/-! ## The running sum over a run of ten points -/

section Fold

variable (V : (c : Dev nD) → (b : Ref sig .tc) → Buf (Elt F) ((c : Thread nD τ).loc b))

/-- The first point of a run: the zero block accumulated into, over the point's two row tiles. -/
def first (c : Dev nD) (n : ℕ) (h : n < cfg0.N) : Vec F S1x128x128 .f32 :=
  k0_pay2 (iblk0 V c 0 ⟨n, h⟩) (iblk0 V c 1 ⟨n, h⟩) (k0_pay1 (F := F))

/-- A later point: the block the point before left (`acc`) accumulated into, over the point's two row tiles. -/
def next (c : Dev nD) (n : ℕ) (h : n < cfg0.N) (acc : Vec F S1x128x128 .f32) : Vec F S1x128x128 .f32 :=
  k0_pay2 (iblk0 V c 0 ⟨n, h⟩) (iblk0 V c 1 ⟨n, h⟩) acc

/-- What the output's staging buffer holds after point `t`: the fold of its run up to `t`, from the run's first
    point `10·(t / 10)`. -/
theorem outsAt_eq (c : Dev nD) (t : Fin cfg0.N) :
    (outsAt0 V c t.val t.isLt) = Pipeline.accAt (first V c) (next V c) (10 * (t.val / 10)) (t.val % 10)
      (by have h1 := t.isLt; have h2 := Nat.div_add_mod t.val 10; omega) :=
  Pipeline.eq_accAt_of_mod (fun n h => (outsAt0 V c n h)) 10 (first V c) (next V c)
    (fun n h hn => by rw [outsAt0_A V c ⟨n, h⟩ (by (try dsimp only); omega)]; exact out_A_eq ..)
    (fun n h hn => by rw [outsAt0_B V c ⟨n + 1, h⟩ (by (try dsimp only); omega)]; exact out_B_eq ..)
    (by decide) t.val t.isLt _

end Fold

/-! ## From the two written-back blocks to the array -/

section Array

variable (V : (c : Dev nD) → (b : Ref sig .tc) → Buf (Elt Ideal) ((c : Thread nD τ).loc b))

/-- The index `(a, b, c)` of an `A × B × C` array, from natural coordinates. -/
abbrev rc3 {A B C : Nat} (a : Nat) (ha : a < A) (b : Nat) (hb : b < B) (c : Nat) (hc : c < C) : (⟨3, ![A, B, C]⟩ : Shape).Idx :=
  fun x => match x with
    | ⟨0, _⟩ => ⟨a, ha⟩
    | ⟨1, _⟩ => ⟨b, hb⟩
    | ⟨2, _⟩ => ⟨c, hc⟩

/-- Row tile `n`'s contribution at `(h, e)`: `∑ₖ adj[10000·n + k, h] · feature[10000·n + k, e]` (zero past the grid). -/
def tileTerm (A B : (⟨2, ![200000, 128]⟩ : Shape).Idx → Ideal .f32) (n : ℕ) (j : S1x128x128.Idx) : Ideal .f32 :=
  if h : n < 20 then
    ∑ k : Fin 10000, A (rc (10000 * n + k.val) (by have := k.isLt; omega) (j 1).val (j 1).isLt)
      * B (rc (10000 * n + k.val) (by have := k.isLt; omega) (j 2).val (j 2).isLt)
  else 0

/-- The index maps over the grid: both input windows sit at row tile `t`, the output window at block `t / 10`. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 10 ∧ win0_2.index t (1 : Fin 3) = 0 ∧ win0_2.index t (2 : Fin 3) = 0 :=
  (by decide +kernel : ∀ t : Fin grid0.N, _)

/-- The `adj` tile of point `n` at `(k, h)` is `adj` at row `10000·n + k`. -/
theorem adj_tile (c : Dev nD) (n : ℕ) (h : n < cfg0.N) (k : Fin 10000) (q : ℕ) (hq : q < 128) :
    iblk0 V c 0 ⟨n, h⟩ (rc k.val k.isLt q hq)
      = V c main_arg1 (rc (10000 * n + k.val) (by have := k.isLt; have := lt_of_lt_of_eq h (show cfg0.N = 20 from N_0); omega) q hq) := by
  obtain ⟨e0, e1, e2, e3, e4, e5, e6⟩ := block_index ⟨n, h⟩
  have e0' : win0_0.index ⟨n, h⟩ (0 : Fin 2) = n := e0
  unfold iblk0
  rw [View.read_apply]
  show V c main_arg1 _ = V c main_arg1 _
  congr 1
  funext a; apply Fin.ext
  match a with
  | ⟨0, _⟩ => show win0_0.index ⟨n, h⟩ (0 : Fin 2) * 10000 + 1 * k.val = 10000 * n + k.val; omega
  | ⟨1, _⟩ => show win0_0.index ⟨n, h⟩ (1 : Fin 2) * 128 + 1 * q = q; omega

/-- The `feature` tile of point `n` at `(k, e)` is `feature` at row `10000·n + k`. -/
theorem feat_tile (c : Dev nD) (n : ℕ) (h : n < cfg0.N) (k : Fin 10000) (q : ℕ) (hq : q < 128) :
    iblk0 V c 1 ⟨n, h⟩ (rc k.val k.isLt q hq)
      = V c main_arg0 (rc (10000 * n + k.val) (by have := k.isLt; have := lt_of_lt_of_eq h (show cfg0.N = 20 from N_0); omega) q hq) := by
  obtain ⟨e0, e1, e2, e3, e4, e5, e6⟩ := block_index ⟨n, h⟩
  have e2' : win0_1.index ⟨n, h⟩ (0 : Fin 2) = n := e2
  unfold iblk0
  rw [View.read_apply]
  show V c main_arg0 _ = V c main_arg0 _
  congr 1
  funext a; apply Fin.ext
  match a with
  | ⟨0, _⟩ => show win0_1.index ⟨n, h⟩ (0 : Fin 2) * 10000 + 1 * k.val = 10000 * n + k.val; omega
  | ⟨1, _⟩ => show win0_1.index ⟨n, h⟩ (1 : Fin 2) * 128 + 1 * q = q; omega

/-- Point `n` adds its row tile's contribution to whatever block it accumulates into. -/
theorem next_apply (c : Dev nD) (n : ℕ) (h : n < cfg0.N) (acc : Vec Ideal S1x128x128 .f32) (j : S1x128x128.Idx) :
    next V c n h acc j = acc j + tileTerm (V c main_arg1) (V c main_arg0) n j := by
  have hN : n < 20 := lt_of_lt_of_eq h (show cfg0.N = 20 from N_0)
  unfold next tileTerm
  rw [dif_pos hN]
  refine (acc_apply _ _ acc j).trans (congrArg (acc j + ·) (Finset.sum_congr rfl fun k _ => ?_))
  exact congrArg₂ (· * ·) (adj_tile V c n h k (j 1).val (j 1).isLt) (feat_tile V c n h k (j 2).val (j 2).isLt)

/-- The fold of run `r` (points `10r … 10r + 9`), at an index: zero plus the ten row tiles' contributions. -/
theorem run_apply (c : Dev nD) (r : ℕ) (h : 10 * r + 9 < cfg0.N) (j : S1x128x128.Idx) :
    Pipeline.accAt (first V c) (next V c) (10 * r) 9 h j
      = 0 + ∑ s ∈ Finset.range 10, tileTerm (V c main_arg1) (V c main_arg0) (10 * r + s) j :=
  Pipeline.accAt_add_apply (first V c) (next V c) (fun _ => 0) (fun n j => tileTerm (V c main_arg1) (V c main_arg0) n j) (10 * r) 9
    (fun h j => by
      show next V c (10 * r) h (k0_pay1 (F := Ideal)) j = _
      rw [next_apply, zero_apply])
    (fun n h acc j _ _ => next_apply V c n h acc j) 9 (le_refl 9) h j

/-- Block `c`'s place in the partial-sum array: `(0, h, e)` for array index `(c, h, e)`. -/
abbrev inBlock (i : S2x128x128.Idx) : S1x128x128.Idx := fun a => match a with
  | ⟨0, _⟩ => ⟨0, Nat.one_pos⟩
  | ⟨1, _⟩ => ⟨(i 1).val, (i 1).isLt⟩
  | ⟨2, _⟩ => ⟨(i 2).val, (i 2).isLt⟩

/-- What the partial-sum array ends holding: at `(c, h, e)` the fold of run `c`. -/
def partials (c : Dev nD) : Buf (Elt Ideal) ((c : Thread nD τ).loc main_v0) := fun i =>
  if h : 10 * (i 0).val + 9 < cfg0.N then
    (Pipeline.accAt (first V c) (next V c) (10 * (i 0).val) 9 h) (inBlock i)
  else V c (Pipeline.arrRef spec0 2) i

/-- A point that writes back (`t % 10 = 9`) writes block `t / 10` of `partials`: its whole run's fold. -/
theorem flushed_eq (c : Dev nD) (t : Fin cfg0.N) (hf : (cfg0.win 2).flush t = true) :
    (dat0 V c).flushed 2 t = ((cfg0.win 2).blk t).view.read (Elt Ideal) (partials V c) := by
  show (cfg0.win 2).cut (grid0.coords t) ((dat0 V c).after 2 t) = _
  rw [after0_2, outsAt_eq]
  have hm : t.val % 10 = 9 := (flush0_2 t).mp hf
  obtain ⟨e0, e1, e2, e3, e4, e5, e6⟩ := block_index t
  funext y
  have hy0 : (y 0).val < 1 := (y 0).isLt
  have hy1 : (y 1).val < 128 := (y 1).isLt
  have hy2 : (y 2).val < 128 := (y 2).isLt
  have hb0 : (((cfg0.win 2).blk t).view.emb y 0).val = win0_2.index t (0 : Fin 3) * 1 + 1 * (y 0).val := rfl
  have hb1 : (((cfg0.win 2).blk t).view.emb y 1).val = win0_2.index t (1 : Fin 3) * 128 + 1 * (y 1).val := rfl
  have hb2 : (((cfg0.win 2).blk t).view.emb y 2).val = win0_2.index t (2 : Fin 3) * 128 + 1 * (y 2).val := rfl
  have hr : (((cfg0.win 2).blk t).view.emb y 0).val = t.val / 10 := by rw [hb0]; omega
  have hl : inBlock (((cfg0.win 2).blk t).view.emb y) = (cfg0.win 2).xinj (grid0.coords t) y := by
    funext a; apply Fin.ext
    match a with
    | ⟨0, _⟩ => show 0 = (y 0).val; omega
    | ⟨1, _⟩ => show (((cfg0.win 2).blk t).view.emb y 1).val = (y 1).val; rw [hb1]; omega
    | ⟨2, _⟩ => show (((cfg0.win 2).blk t).view.emb y 2).val = (y 2).val; rw [hb2]; omega
  show (Pipeline.accAt (first V c) (next V c) (10 * (t.val / 10)) (t.val % 10) _) ((cfg0.win 2).xinj (grid0.coords t) y) = partials V c (((cfg0.win 2).blk t).view.emb y)
  unfold partials
  rw [dif_pos (by rw [hr]; have := t.isLt; have := Nat.div_add_mod t.val 10; omega), hl]
  have e : ∀ (b j : ℕ) (h : b + j < cfg0.N) (b' j' : ℕ) (h' : b' + j' < cfg0.N), b = b' → j = j' →
      Pipeline.accAt (first V c) (next V c) b j h = Pipeline.accAt (first V c) (next V c) b' j' h' := by
    intro b j h b' j' h' hb hj; subst hb; subst hj; rfl
  have hb : 10 * (t.val / 10) = 10 * (((cfg0.win 2).blk t).view.emb y 0).val := by rw [hr]
  exact congrFun (e _ _ _ _ _ _ hb hm) _

/-- An index of the partial-sum array is in point `t`'s block iff each coordinate is in the block's range. -/
theorem mem_block (t : Fin cfg0.N) (i : S2x128x128.Idx) :
    i ∈ ((cfg0.win 2).blk t).view.set ↔ ∀ a : Fin 3, win0_2.index t a * S1x128x128.size a ≤ (i a).val ∧ (i a).val < win0_2.index t a * S1x128x128.size a + S1x128x128.size a := by
  show i ∈ ((View.whole main_v0).slice (win0_2.rect t)).set ↔ _
  rw [View.set_slice_whole, Rect.mem_set_unit]
  exact Iff.rfl

/-- Slab `c` is written back by point `10·c + 9`. -/
theorem cover (i : S2x128x128.Idx) : ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 128 := (i 2).isLt
  have hN : cfg0.N = 20 := N_0
  let t : Fin cfg0.N := ⟨10 * (i 0).val + 9, by rw [hN]; omega⟩
  obtain ⟨e0, e1, e2, e3, e4, e5, e6⟩ := block_index t
  have e4' : win0_2.index t (0 : Fin 3) = (10 * (i 0).val + 9) / 10 := e4
  refine ⟨t, (flush0_2 t).mpr (by show (10 * (i 0).val + 9) % 10 = 9; omega), ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- The partial-sum array after the region. -/
theorem final (c : Dev nD) : (dat0 V c).arrAt 2 cfg0.N = partials V c :=
  (dat0 V c).arrAt_eq_of_cover 2 (partials V c) (fun t hf => flushed_eq V c t hf) cover

/-- The partial-sum array at `(c, h, e)`: zero plus the contributions of row tiles `10c … 10c + 9`. -/
theorem partials_apply (c : Dev nD) (i : S2x128x128.Idx) :
    partials V c i = 0 + ∑ s ∈ Finset.range 10, tileTerm (V c main_arg1) (V c main_arg0) (10 * (i 0).val + s) (inBlock i) := by
  have hi0 : (i 0).val < 2 := (i 0).isLt
  have hN : cfg0.N = 20 := N_0
  unfold partials
  rw [dif_pos (by rw [hN]; omega)]
  exact run_apply V c (i 0).val _ (inBlock i)

end Array

end Cert.KernelIdeal.Reduce

end
-- ==== Proof.HyperChain.lean ====
/-
  The chain of three residual layers between the two matrix products, as one function.

  With `ℓ(x) = if x ≥ 0 then x else 0.05·x` applied entry by entry, a layer maps a 128×128 matrix `f` to
  `ℓ(w · f) + f`, and the chain is `f₁ = ℓ(s)`, `f₂ = ℓ(w₁·f₁) + f₁`, `f₃ = ℓ(w₂·f₂) + f₂`, `f₄ = ℓ(w₃·f₃) + f₃`.
  Both programs apply exactly these operations, in this order, to their own first product `s`; stated once here, over
  any float values, the chain never has to be opened: equal arguments give equal results.
-/
import Idealize.ShloMosaic.PureOps

noncomputable section

namespace Cert.HyperChain

open Idealize.ShloMosaic

abbrev S0 : Shape := ⟨0, ![]⟩
abbrev SQ : Shape := ⟨2, ![128, 128]⟩

variable {F : FTy → Type} [FloatOps F]

/-- The leaky rectifier of an array: `x` where `x ≥ 0`, else the f32 literal of 0.05 times `x`. -/
def leaky {s : Shape} (hb : S0.BroadcastsInDim s (![] : Fin 0 → Fin s.rank)) (x : FVec F s .f32) : FVec F s .f32 :=
  select (cmpf .oge x (broadcastInDim s ![] hb (constant S0 .f32 0x00000000#32))) x
    (mulf (broadcastInDim s ![] hb (constant S0 .f32 0x3D4CCCCD#32)) x)

/-- One residual layer: `ℓ(w · f) + f`. -/
def layer (hb : S0.BroadcastsInDim SQ (![] : Fin 0 → Fin SQ.rank)) (D : DotDims SQ SQ SQ) (w f : FVec F SQ .f32) : FVec F SQ .f32 :=
  addf (leaky hb (Host.dotGeneral D none w f)) f

/-- The chain from the first product `s` to the matrix the last product multiplies by. -/
def chain3 (hb : S0.BroadcastsInDim SQ (![] : Fin 0 → Fin SQ.rank)) (D : DotDims SQ SQ SQ) (s w1 w2 w3 : FVec F SQ .f32) : FVec F SQ .f32 :=
  layer hb D w3 (layer hb D w2 (layer hb D w1 (leaky hb s)))

end Cert.HyperChain

end
-- ==== Proof.HostChain.lean ====
/-
  The host operations between the two regions: the two partial sums added, then the chain of three residual layers.
-/
import proofs.«167385_j65481071395086_2_alg».proof.Proof.Gen.KernelIdeal.Frame
import proofs.«167385_j65481071395086_2_alg».proof.Proof.HyperChain
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The sum of the two 128×128 slabs of the partial-sum array. -/
def slabSum (P : FVec F S2x128x128 .f32) : FVec F S128x128 .f32 :=
  addf (shapeCast S128x128 (extractStridedSlice S1x128x128 ![0, 0, 0] P slices_S2x128x128_S1x128x128_0_0_0) shapeCasts_S1x128x128_S128x128)
    (shapeCast S128x128 (extractStridedSlice S1x128x128 ![1, 0, 0] P slices_S2x128x128_S1x128x128_1_0_0) shapeCasts_S1x128x128_S128x128)

/-- The matrix the second region multiplies by: the chain applied to the sum of the two partial sums the first region
    left, with the three weight matrices as launched. -/
theorem chained (c : Dev nD) :
    W10 m ρ c (Proc.devRef .tc main_v31)
      = Cert.HyperChain.chain3 bcast_S_S128x128 dot_S128x128_S128x128_S128x128_1_0_0_1_n_n
          (slabSum (W1 m ρ c (Proc.devRef .tc main_v0)))
          (W1 m ρ c (Proc.devRef .tc main_arg2)) (W1 m ρ c (Proc.devRef .tc main_arg3)) (W1 m ρ c (Proc.devRef .tc main_arg4)) := by
  after_results_simp
  rfl

end Cert.KernelIdeal.HostChain

end
-- ==== Proof.LibHostContractSum.lean ====
/-
  The host's matrix product with ONE contracted axis, read at an output index on the extended reals.

  The product's entry at `j` is the sum, over the contraction index, of the left operand at `lhsIdx j ·` times the right
  operand at `rhsIdx j ·`.  When one axis of extent `K` is contracted, the contraction index is its one coordinate, so
  the entry is a sum over `k : Fin K` of the operands at whatever indices the dimension record names there — given by
  the caller as two families `li`, `ri` with the two equations that say so.  Nothing depends on which axes are contracted.
-/
import Idealize.ShloMosaic.PureOps.Ideal.Laws
import Idealize.ShloMosaic.Lib.ValueIdx

namespace Cert.LibHostContractSum

open Idealize.ShloMosaic Idealize.ShloMosaic.ValueIdx

/-- A host `dot_general` with one contracted axis of extent `K`: at output index `j` it is
    `∑ k : Fin K, lhs (li k) * rhs (ri k)`, where `li k` / `ri k` are the operand indices the dimension record gives at
    `j` and contraction coordinate `k` (`hl`, `hr`). -/
theorem dotGeneral_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    Host.dotGeneral D prec lhs rhs j = ∑ k : Fin K, lhs (li k) * rhs (ri k) := by
  show FloatOps.dotGeneral D prec .single lhs rhs j = _
  rw [Ideal.dotGeneral_apply, ← Equiv.sum_comp (contrEquiv1 D K hrank hsize).symm]
  exact Finset.sum_congr rfl fun k _ => by rw [hl k, hr k]

end Cert.LibHostContractSum
-- ==== Proof.RefRead.lean ====
/-
  The reference's two large products read at an index, on the extended reals.

  The first product `adjᵀ · feature` at `(h, e)` is `∑ₙ adj[n, h] · feature[n, e]` over all 200000 rows; the last one,
  through the leaky rectifier, is at `(r, e)` the rectifier of `∑ₖ adj[r, k] · f[k, e]`.
-/
import proofs.«167385_j65481071395086_2_alg».proof.Proof.Gen.ReferenceIdeal
import proofs.«167385_j65481071395086_2_alg».proof.Proof.HyperChain
import proofs.«167385_j65481071395086_2_alg».proof.Proof.Propagate
import proofs.«167385_j65481071395086_2_alg».proof.Proof.LibHostContractSum
import Idealize.ShloMosaic.Lib.Pipeline.Value
import Idealize.ShloMosaic.Lib.ValueIdx

set_option maxRecDepth 16384

noncomputable section

namespace Cert.ReferenceIdeal.RefRead

open Cert.ReferenceIdeal Cert.ReferenceIdeal.Facts₀ Idealize.ShloMosaic Idealize.ShloMosaic.ValueIdx
open Cert.KernelIdeal.Propagate (rc leakyAt rectProd)

theorem first_lhs (j : S128x128.Idx) (k : Fin 200000) :
    dot_S128x200000_S200000x128_S128x128_1_0_0_1_n_n.lhsIdx j ((contrEquiv1 dot_S128x200000_S200000x128_S128x128_1_0_0_1_n_n 200000 rfl rfl).symm k)
      = rc (j 0).val (j 0).isLt k.val k.isLt := by
  have hk := contrEquiv1_symm_val dot_S128x200000_S200000x128_S128x128_1_0_0_1_n_n 200000 rfl rfl k
  funext a; apply Fin.ext
  match a with
  | ⟨0, _⟩ =>
    show (dot_S128x200000_S200000x128_S128x128_1_0_0_1_n_n.lhsIdx j _ 0).val = (j 0).val
    unfold DotDims.lhsIdx
    rw [dif_neg (show ¬(0 : Fin S128x200000.rank) ∈ dot_S128x200000_S200000x128_S128x128_1_0_0_1_n_n.lhsBatch by decide),
      dif_pos (show (0 : Fin S128x200000.rank) ∈ dot_S128x200000_S200000x128_S128x128_1_0_0_1_n_n.lhsNonContracting by decide)]
    rfl
  | ⟨1, _⟩ => exact (dot_S128x200000_S200000x128_S128x128_1_0_0_1_n_n.lhsIdx_val_of_single rfl j _).trans hk

theorem first_rhs (j : S128x128.Idx) (k : Fin 200000) :
    dot_S128x200000_S200000x128_S128x128_1_0_0_1_n_n.rhsIdx j ((contrEquiv1 dot_S128x200000_S200000x128_S128x128_1_0_0_1_n_n 200000 rfl rfl).symm k)
      = rc k.val k.isLt (j 1).val (j 1).isLt := by
  have hk := contrEquiv1_symm_val dot_S128x200000_S200000x128_S128x128_1_0_0_1_n_n 200000 rfl rfl k
  funext a; apply Fin.ext
  match a with
  | ⟨0, _⟩ => exact (dot_S128x200000_S200000x128_S128x128_1_0_0_1_n_n.rhsIdx_val_of_single rfl j _).trans hk
  | ⟨1, _⟩ =>
    show (dot_S128x200000_S200000x128_S128x128_1_0_0_1_n_n.rhsIdx j _ 1).val = (j 1).val
    unfold DotDims.rhsIdx
    rw [dif_neg (show ¬(1 : Fin S200000x128.rank) ∈ dot_S128x200000_S200000x128_S128x128_1_0_0_1_n_n.rhsBatch by decide),
      dif_pos (show (1 : Fin S200000x128.rank) ∈ dot_S128x200000_S200000x128_S128x128_1_0_0_1_n_n.rhsNonContracting by decide)]
    rfl

theorem last_lhs (j : S200000x128.Idx) (k : Fin 128) :
    dot_S200000x128_S128x128_S200000x128_1_0_0_1_n_n.lhsIdx j ((contrEquiv1 dot_S200000x128_S128x128_S200000x128_1_0_0_1_n_n 128 rfl rfl).symm k)
      = rc (j 0).val (j 0).isLt k.val k.isLt := by
  have hk := contrEquiv1_symm_val dot_S200000x128_S128x128_S200000x128_1_0_0_1_n_n 128 rfl rfl k
  funext a; apply Fin.ext
  match a with
  | ⟨0, _⟩ =>
    show (dot_S200000x128_S128x128_S200000x128_1_0_0_1_n_n.lhsIdx j _ 0).val = (j 0).val
    unfold DotDims.lhsIdx
    rw [dif_neg (show ¬(0 : Fin S200000x128.rank) ∈ dot_S200000x128_S128x128_S200000x128_1_0_0_1_n_n.lhsBatch by decide),
      dif_pos (show (0 : Fin S200000x128.rank) ∈ dot_S200000x128_S128x128_S200000x128_1_0_0_1_n_n.lhsNonContracting by decide)]
    rfl
  | ⟨1, _⟩ => exact (dot_S200000x128_S128x128_S200000x128_1_0_0_1_n_n.lhsIdx_val_of_single rfl j _).trans hk

theorem last_rhs (j : S200000x128.Idx) (k : Fin 128) :
    dot_S200000x128_S128x128_S200000x128_1_0_0_1_n_n.rhsIdx j ((contrEquiv1 dot_S200000x128_S128x128_S200000x128_1_0_0_1_n_n 128 rfl rfl).symm k)
      = rc k.val k.isLt (j 1).val (j 1).isLt := by
  have hk := contrEquiv1_symm_val dot_S200000x128_S128x128_S200000x128_1_0_0_1_n_n 128 rfl rfl k
  funext a; apply Fin.ext
  match a with
  | ⟨0, _⟩ => exact (dot_S200000x128_S128x128_S200000x128_1_0_0_1_n_n.rhsIdx_val_of_single rfl j _).trans hk
  | ⟨1, _⟩ =>
    show (dot_S200000x128_S128x128_S200000x128_1_0_0_1_n_n.rhsIdx j _ 1).val = (j 1).val
    unfold DotDims.rhsIdx
    rw [dif_neg (show ¬(1 : Fin S128x128.rank) ∈ dot_S200000x128_S128x128_S200000x128_1_0_0_1_n_n.rhsBatch by decide),
      dif_pos (show (1 : Fin S128x128.rank) ∈ dot_S200000x128_S128x128_S200000x128_1_0_0_1_n_n.rhsNonContracting by decide)]
    rfl

/-- The first product at `(h, e)`: the sum over all rows `n` of `adj[n, h] · feature[n, e]`. -/
theorem first_apply (A B : FVec Ideal S200000x128 .f32) (j : S128x128.Idx) :
    Host.dotGeneral dot_S128x200000_S200000x128_S128x128_1_0_0_1_n_n none
        (transpose S128x200000 [1, 0] A transposes_S200000x128_S128x200000_1_0) B j
      = ∑ n : Fin 200000, A (rc n.val n.isLt (j 0).val (j 0).isLt) * B (rc n.val n.isLt (j 1).val (j 1).isLt) := by
  refine (Cert.LibHostContractSum.dotGeneral_sum dot_S128x200000_S200000x128_S128x128_1_0_0_1_n_n none 200000 rfl rfl _ B j
    (fun k => rc (j 0).val (j 0).isLt k.val k.isLt) (fun k => rc k.val k.isLt (j 1).val (j 1).isLt) (first_lhs j) (first_rhs j)).trans ?_
  refine Finset.sum_congr rfl fun n _ => congrArg (· * B (rc n.val n.isLt (j 1).val (j 1).isLt)) ?_
  exact transpose_apply [1, 0] A transposes_S200000x128_S128x200000_1_0 _ (rc n.val n.isLt (j 0).val (j 0).isLt) (fun b => match b with
    | ⟨0, _⟩ => rfl
    | ⟨1, _⟩ => rfl)

/-- The leaky rectifier of an array, at an index. -/
theorem leaky_apply {s : Shape} (hb : Cert.HyperChain.S0.BroadcastsInDim s (![] : Fin 0 → Fin s.rank)) (X : FVec Ideal s .f32) (j : s.Idx) :
    Cert.HyperChain.leaky hb X j = leakyAt (X j) := by
  have h0 : ∀ b, broadcastInDim s ![] hb (constant (F := Ideal) Cert.HyperChain.S0 .f32 b) j = Scalar.ofBits (F := Ideal) .f32 b := fun b =>
    (broadcastInDim_apply ![] hb _ j ix0 (fun a => a.elim0)).trans rfl
  unfold Cert.HyperChain.leaky leakyAt
  show Scalar.select (FloatOps.cmpf .oge (X j) (broadcastInDim s ![] hb (constant (F := Ideal) Cert.HyperChain.S0 .f32 0x00000000#32) j)) (X j)
    (FloatOps.mulf (broadcastInDim s ![] hb (constant (F := Ideal) Cert.HyperChain.S0 .f32 0x3D4CCCCD#32) j) (X j)) = _
  rw [h0, h0]

/-- The rectified last product is `rectProd`. -/
theorem last_eq (A : FVec Ideal S200000x128 .f32) (M : FVec Ideal S128x128 .f32) :
    Cert.HyperChain.leaky bcast_S_S200000x128 (Host.dotGeneral dot_S200000x128_S128x128_S200000x128_1_0_0_1_n_n none A M)
      = rectProd (R := 200000) A M := by
  funext j
  rw [leaky_apply]
  unfold rectProd
  exact congrArg leakyAt (Cert.LibHostContractSum.dotGeneral_sum dot_S200000x128_S128x128_S200000x128_1_0_0_1_n_n none 128 rfl rfl A M j
    (fun k => rc (j 0).val (j 0).isLt k.val k.isLt) (fun k => rc k.val k.isLt (j 1).val (j 1).isLt) (last_lhs j) (last_rhs j))

end Cert.ReferenceIdeal.RefRead

end
-- ==== Proof.LibBlockSum.lean ====
/-
  A finite sum taken block by block.  A sum of `A * B` terms indexed by the naturals below `A * B` is the sum, over
  the `A` consecutive blocks of length `B`, of each block's sum: term `B * s + k` is the `k`-th term of block `s`.
  Only commutativity and associativity of the addition are used, so the law holds in any commutative additive
  monoid — in particular on the extended reals, where no finiteness of the terms is needed.
-/
import Mathlib.Algebra.BigOperators.Fin
import Mathlib.Algebra.BigOperators.Intervals

namespace BlockSum

open Finset

/-- Over `Finset.range`: the `A` block sums of length `B` add up to the sum of the first `A * B` terms. -/
theorem sum_range_blocks {β : Type*} [AddCommMonoid β] (B : ℕ) (f : ℕ → β) :
    ∀ A : ℕ, ∑ s ∈ range A, ∑ k ∈ range B, f (B * s + k) = ∑ j ∈ range (A * B), f j
  | 0 => by simp
  | A + 1 => by
    rw [sum_range_succ, sum_range_blocks B f A, Nat.succ_mul, sum_range_add, Nat.mul_comm B A]

/-- The same with the position inside a block and the position in the whole sum ranging over `Fin`: the form in which
    a sum over a contracted axis of length `A * B`, split into `A` tiles of length `B`, is met. -/
theorem sum_fin_blocks {β : Type*} [AddCommMonoid β] (A B : ℕ) (f : ℕ → β) :
    ∑ s ∈ range A, ∑ k : Fin B, f (B * s + k.val) = ∑ j : Fin (A * B), f j.val := by
  rw [Fin.sum_univ_eq_sum_range (fun j => f j) (A * B), ← sum_range_blocks B f A]
  exact sum_congr rfl fun s _ => Fin.sum_univ_eq_sum_range (fun k => f (B * s + k)) B

end BlockSum
-- ==== Proof.Bridge.lean ====
/-
  The two first products are one matrix.

  The kernel's side is the sum of the two slabs of the partial-sum array: at `(h, e)`,
  `(0 + ∑_{s<10} T(s)) + (0 + ∑_{s<10} T(10 + s))` with `T(n) = ∑_{k<10000} adj[10000·n + k, h] · feature[10000·n + k, e]`.
  The reference's side is `∑_{n<200000} adj[n, h] · feature[n, e]`.  Splitting the 200000 rows into twenty consecutive
  blocks of 10000 makes them equal; only commutativity and associativity of the addition of extended reals are used,
  so no finiteness of the entries is needed.
-/
import proofs.«167385_j65481071395086_2_alg».proof.Proof.Reduce
import proofs.«167385_j65481071395086_2_alg».proof.Proof.HostChain
import proofs.«167385_j65481071395086_2_alg».proof.Proof.RefRead
import proofs.«167385_j65481071395086_2_alg».proof.Proof.LibBlockSum

set_option maxRecDepth 16384

noncomputable section

namespace Cert.Bridge

open Idealize.ShloMosaic Idealize.ShloMosaic.ValueIdx
open Cert.KernelIdeal (S2x128x128 S1x128x128 S128x128 S200000x128)
open Cert.KernelIdeal.Propagate (rc)
open Cert.KernelIdeal.Reduce (rc3 tileTerm inBlock)
open Cert.KernelIdeal.HostChain (slabSum)

/-- Row `n`'s term of the product at `(h, e)`: `adj[n, h] · feature[n, e]` (zero past the last row). -/
def rowTerm (A B : (⟨2, ![200000, 128]⟩ : Shape).Idx → Ideal .f32) (h : ℕ) (hh : h < 128) (e : ℕ) (he : e < 128) (n : ℕ) : Ideal .f32 :=
  if hn : n < 200000 then A (rc n hn h hh) * B (rc n hn e he) else 0

/-- A row tile's contribution is the sum of its 10000 rows' terms. -/
theorem tileTerm_eq (A B : (⟨2, ![200000, 128]⟩ : Shape).Idx → Ideal .f32) (n : ℕ) (hn : n < 20) (jj : S1x128x128.Idx) :
    tileTerm A B n jj = ∑ k : Fin 10000, rowTerm A B (jj 1).val (jj 1).isLt (jj 2).val (jj 2).isLt (10000 * n + k.val) := by
  unfold tileTerm
  rw [dif_pos hn]
  refine Finset.sum_congr rfl fun k _ => ?_
  unfold rowTerm
  rw [dif_pos (by have := k.isLt; omega)]

/-- Slab `c` of the partial-sum array, viewed as a 128×128 matrix, at `(h, e)` is the array at `(c, h, e)`. -/
theorem slab_apply (P : FVec Ideal S2x128x128 .f32) (c : ℕ) (hc : c < 2) (off : Fin 3 → Nat) (hoff : off = ![c, 0, 0])
    (sl : S2x128x128.Slices off S1x128x128) (j : S128x128.Idx) :
    shapeCast S128x128 (extractStridedSlice S1x128x128 off P sl) Cert.KernelIdeal.Facts₀.shapeCasts_S1x128x128_S128x128 j
      = P (rc3 c hc (j 0).val (j 0).isLt (j 1).val (j 1).isLt) := by
  subst hoff
  refine (shapeCast_dropUnit_apply ![128, 128] _ Cert.KernelIdeal.Facts₀.shapeCasts_S1x128x128_S128x128 j).trans ?_
  exact extractStridedSlice_apply ![c, 0, 0] P sl _ (rc3 c hc (j 0).val (j 0).isLt (j 1).val (j 1).isLt) (fun a => match a with
    | ⟨0, _⟩ => rfl
    | ⟨1, _⟩ => (Nat.zero_add _).symm
    | ⟨2, _⟩ => (Nat.zero_add _).symm)

/-- The sum of the two slabs of an array holding the two runs' folds is the product over all 200000 rows. -/
theorem first_product (A B : FVec Ideal S200000x128 .f32) (P : FVec Ideal S2x128x128 .f32)
    (hP : ∀ i : S2x128x128.Idx, P i = 0 + ∑ s ∈ Finset.range 10, tileTerm A B (10 * (i 0).val + s) (inBlock i)) :
    slabSum P = Host.dotGeneral Cert.ReferenceIdeal.dot_S128x200000_S200000x128_S128x128_1_0_0_1_n_n none
      (transpose Cert.ReferenceIdeal.S128x200000 [1, 0] A Cert.ReferenceIdeal.Facts₀.transposes_S200000x128_S128x200000_1_0) B := by
  funext j
  have hj0 : (j 0).val < 128 := (j 0).isLt
  have hj1 : (j 1).val < 128 := (j 1).isLt
  refine Eq.trans ?_ (Cert.ReferenceIdeal.RefRead.first_apply A B j).symm
  -- the reference's side: every row's term
  have hR : (∑ n : Fin 200000, A (rc n.val n.isLt (j 0).val (j 0).isLt) * B (rc n.val n.isLt (j 1).val (j 1).isLt))
      = ∑ n : Fin 200000, rowTerm A B (j 0).val hj0 (j 1).val hj1 n.val :=
    Finset.sum_congr rfl fun n _ => by unfold rowTerm; rw [dif_pos n.isLt]
  rw [hR]
  -- the kernel's side: the two slabs, each zero plus ten row tiles
  show shapeCast S128x128 (extractStridedSlice S1x128x128 ![0, 0, 0] P _) _ j + shapeCast S128x128 (extractStridedSlice S1x128x128 ![1, 0, 0] P _) _ j = _
  rw [slab_apply P 0 (by decide) ![0, 0, 0] rfl, slab_apply P 1 (by decide) ![1, 0, 0] rfl, hP, hP, zero_add, zero_add]
  have hT : ∀ (c : ℕ) (hc : c < 2) (n : ℕ), n < 20 →
      tileTerm A B n (inBlock (rc3 c hc (j 0).val (j 0).isLt (j 1).val (j 1).isLt))
        = ∑ k : Fin 10000, rowTerm A B (j 0).val hj0 (j 1).val hj1 (10000 * n + k.val) :=
    fun c hc n hn => tileTerm_eq A B n hn _
  have h0 : (∑ s ∈ Finset.range 10, tileTerm A B (10 * (rc3 0 (by decide : 0 < 2) (j 0).val (j 0).isLt (j 1).val (j 1).isLt 0).val + s) (inBlock (rc3 0 (by decide : 0 < 2) (j 0).val (j 0).isLt (j 1).val (j 1).isLt)))
      = ∑ s ∈ Finset.range 10, ∑ k : Fin 10000, rowTerm A B (j 0).val hj0 (j 1).val hj1 (10000 * s + k.val) :=
    Finset.sum_congr rfl fun s hs => by
      have hs' := Finset.mem_range.mp hs
      show tileTerm A B (10 * 0 + s) _ = _
      rw [Nat.mul_zero, Nat.zero_add, hT 0 _ s (by omega)]
  have h1 : (∑ s ∈ Finset.range 10, tileTerm A B (10 * (rc3 1 (by decide : 1 < 2) (j 0).val (j 0).isLt (j 1).val (j 1).isLt 0).val + s) (inBlock (rc3 1 (by decide : 1 < 2) (j 0).val (j 0).isLt (j 1).val (j 1).isLt)))
      = ∑ s ∈ Finset.range 10, ∑ k : Fin 10000, rowTerm A B (j 0).val hj0 (j 1).val hj1 (10000 * (10 + s) + k.val) :=
    Finset.sum_congr rfl fun s hs => by
      have hs' := Finset.mem_range.mp hs
      show tileTerm A B (10 * 1 + s) _ = _
      rw [Nat.mul_one, hT 1 _ (10 + s) (by omega)]
  rw [h0, h1, ← Finset.sum_range_add (fun s => ∑ k : Fin 10000, rowTerm A B (j 0).val hj0 (j 1).val hj1 (10000 * s + k.val)) 10 10]
  exact BlockSum.sum_fin_blocks 20 10000 (rowTerm A B (j 0).val hj0 (j 1).val hj1)

end Cert.Bridge

end
-- ==== Proof.lean ====
/-
  The kernel computes `ℓ(adj · f₄)`, where `ℓ` is the leaky rectifier `x ↦ if x ≥ 0 then x else 0.05·x` and `f₄` comes from
  `f₁ = ℓ(adjᵀ · feature)` through three residual layers `f ↦ ℓ(w · f) + f`.  It does so in two pipelined regions: the
  first accumulates `adjᵀ · feature` over twenty row tiles of 10000 rows into two partial sums (ten tiles each); plain
  array operations add the two partial sums and apply the three layers; the second multiplies each row tile of `adj` by
  `f₄` and rectifies.  The reference does the same with one product over all 200000 rows.

  On the extended reals the two agree: a change of float format is the identity, a product into a zero accumulator is
  the plain sum, and a sum over 200000 rows is the sum of its twenty blocks of 10000 (Proof/Bridge.lean — the one
  algebraic law used, which needs only commutativity and associativity, so the precondition is never opened).  The
  three layers are the same operations on both sides and are never opened either (Proof/HyperChain.lean).

  Proof/RunValue.lean names the result array in the kernel's run; Proof/Reduce.lean and Proof/Propagate.lean read what
  each region leaves in its output array; Proof/HostChain.lean reads the operations between them; Proof/RefRun.lean and
  Proof/RefRead.lean are the reference's run and its two large products at an index.
-/
import proofs.«167385_j65481071395086_2_alg».proof.Defs
import proofs.«167385_j65481071395086_2_alg».proof.Proof.Gen.Kernel
import proofs.«167385_j65481071395086_2_alg».proof.Proof.Gen.Kernel.Skeleton
import proofs.«167385_j65481071395086_2_alg».proof.Proof.Gen.Kernel.Launch
import proofs.«167385_j65481071395086_2_alg».proof.Proof.Gen.Kernel.Points
import proofs.«167385_j65481071395086_2_alg».proof.Proof.Gen.Kernel.Frame
import proofs.«167385_j65481071395086_2_alg».proof.Proof.Gen.KernelIdeal
import proofs.«167385_j65481071395086_2_alg».proof.Proof.Gen.KernelIdeal.Skeleton
import proofs.«167385_j65481071395086_2_alg».proof.Proof.Gen.KernelIdeal.Launch
import proofs.«167385_j65481071395086_2_alg».proof.Proof.Gen.KernelIdeal.Points
import proofs.«167385_j65481071395086_2_alg».proof.Proof.Gen.KernelIdeal.Frame
import proofs.«167385_j65481071395086_2_alg».proof.Proof.Gen.ReferenceIdeal
import proofs.«167385_j65481071395086_2_alg».proof.Proof.Gen.Pre_finite_inputs
import Idealize.ShloMosaic.Adequacy
import Idealize.ShloMosaic.Init
import proofs.«167385_j65481071395086_2_alg».proof.Proof.RunValue
import proofs.«167385_j65481071395086_2_alg».proof.Proof.Propagate
import proofs.«167385_j65481071395086_2_alg».proof.Proof.Reduce
import proofs.«167385_j65481071395086_2_alg».proof.Proof.HostChain
import proofs.«167385_j65481071395086_2_alg».proof.Proof.RefRun
import proofs.«167385_j65481071395086_2_alg».proof.Proof.RefRead
import proofs.«167385_j65481071395086_2_alg».proof.Proof.Bridge

set_option maxRecDepth 16384

noncomputable section

namespace Cert.Proof

open Idealize.ShloMosaic Idealize.ShloMosaic.TcCoe Idealize.SL.Sem

/-! ## What the kernel's result array holds -/

section KernelValue

open Cert.KernelIdeal Cert.KernelIdeal.Gen

variable (m : (ℓ : Loc nD τ sig) → Buf (Elt Ideal) ℓ) (ρ : Dev nD → PrngReg)

/-- `adj` is as launched when the second region starts. -/
theorem adj_kept (c : Dev nD) : W10 m ρ c (Proc.devRef .tc main_arg1) = m ((c : Thread nD τ).loc main_arg1) :=
  ((W11_arr m ρ c 0).trans (((dat1 (V10 m ρ) c).arrAt_in 0 rfl _).trans (A_eq1 (V10 m ρ) c 0))).symm.trans (W11_main_arg1 m ρ c)

/-- The result array: the rectified product of `adj` with the chain applied to the sum of the two partial sums. -/
theorem kernel_value (c : Dev nD) :
    W11 m ρ c (Proc.devRef .tc main_v32)
      = Propagate.rectProd (R := 200000) (m ((c : Thread nD τ).loc main_arg1))
          (Cert.HyperChain.chain3 bcast_S_S128x128 dot_S128x128_S128x128_S128x128_1_0_0_1_n_n
            (HostChain.slabSum (Reduce.partials (V0 m ρ) c))
            (m ((c : Thread nD τ).loc main_arg2)) (m ((c : Thread nD τ).loc main_arg3)) (m ((c : Thread nD τ).loc main_arg4))) := by
  have hP : W1 m ρ c (Proc.devRef .tc main_v0) = Reduce.partials (V0 m ρ) c := (W1_arr m ρ c 2).trans (Reduce.final (V0 m ρ) c)
  have h2 : W1 m ρ c (Proc.devRef .tc main_arg2) = m ((c : Thread nD τ).loc main_arg2) := W1_of_ne m ρ c main_arg2 (by decide)
  have h3 : W1 m ρ c (Proc.devRef .tc main_arg3) = m ((c : Thread nD τ).loc main_arg3) := W1_of_ne m ρ c main_arg3 (by decide)
  have h4 : W1 m ρ c (Proc.devRef .tc main_arg4) = m ((c : Thread nD τ).loc main_arg4) := W1_of_ne m ρ c main_arg4 (by decide)
  refine (W11_arr m ρ c 2).trans ?_
  rw [Propagate.final (V10 m ρ) c]
  show Propagate.rectProd (R := 200000) (W10 m ρ c (Proc.devRef .tc main_arg1)) (W10 m ρ c (Proc.devRef .tc main_v31)) = _
  rw [adj_kept, HostChain.chained, hP, h2, h3, h4]

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result array at the rectified product of `adj` with the chained matrix; the chained
    matrices agree because the two first products do. -/
theorem algebraic : Cert.algebraic_KernelIdeal_ReferenceIdeal := by
  intro m ρ m' ρ' _ hagree
  refine ⟨fun c => Cert.KernelIdeal.Gen.W11 m ρ c (Proc.devRef .tc Cert.KernelIdeal.main_v32),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Gen.W11 m ρ c (Proc.devRef .tc Cert.KernelIdeal.main_v32)
  rw [kernel_value m ρ c]
  unfold Cert.ReferenceIdeal.ValueP.res_main_v33
  rw [(hagree c).1, (hagree c).2.1, (hagree c).2.2.1, (hagree c).2.2.2.1, (hagree c).2.2.2.2,
    Cert.ReferenceIdeal.RefRead.last_eq]
  refine congrArg (Cert.KernelIdeal.Propagate.rectProd (R := 200000) _) ?_
  rw [Cert.Bridge.first_product _ _ (Cert.KernelIdeal.Reduce.partials (Cert.KernelIdeal.Gen.V0 m ρ) c)
    (Cert.KernelIdeal.Reduce.partials_apply (Cert.KernelIdeal.Gen.V0 m ρ) c)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
